-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216x2 : Shape := ⟨3, ![1, 16777216, 2]⟩
abbrev S1x16777216x3 : Shape := ⟨3, ![1, 16777216, 3]⟩
abbrev S3x3 : Shape := ⟨2, ![3, 3]⟩
abbrev S3 : Shape := ⟨1, ![3]⟩
abbrev S_ : Shape := ⟨0, ![]⟩

class Facts : Prop where
  bcast_S_S1x16777216x3 : S_.BroadcastsInDim S1x16777216x3 (![] : Fin 0 → Fin S1x16777216x3.rank)
  reducesTo_S1x16777216x3_S_d0_1_2 : S1x16777216x3.ReducesTo [0, 1, 2] S_
  h_S_ : 0 < S_.numel
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_arg6 : FVec F S3x3 .f32) (main_arg7 : FVec F S3 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x3 .f32 := Host.absf main_arg6
  let main_cst_8 : FVec F S_ .f32 := constant S_ .f32 0x7F800000#32
  let main_v25 : FVec F S3x3 .f32 := broadcastInDim S3x3 ![] bcast_S_S3x3 main_cst_8
  let main_v26 : IVec S3x3 1 := cmpf .olt main_v24 main_v25
  let main_c_9 : IVec S_ 1 := constantI S_ 1 1#1
  let main_v27 : IVec S_ 1 := (fun x v => Host.reduce IntOp.andi x v reducesTo_S3x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : IVec S1x16777216x2 32) (main_arg1 : FVec F S1x16777216x3 .f32) (main_arg2 : FVec F S3x3 .f32) (main_arg3 : FVec F S3 .f32) (main_arg4 : FVec F S3x3 .f32) (main_arg5 : FVec F S3 .f32) (main_arg6 : FVec F S3x3 .f32) (main_arg7 : FVec F S3 .f32) : IVec S_ 1 :=
  let main_v0 : FVec F S1x16777216x3 .f32 := Host.absf main_arg1
  let main_cst : FVec F S_ .f32 := constant S_ .f32 0x7F800000#32
  let main_v1 : FVec F S1x16777216x3 .f32 := broadcastInDim S1x16777216x3 ![] bcast_S_S1x16777216x3 main_cst
  let main_v2 : IVec S1x16777216x3 1 := cmpf .olt main_v0 main_v1
  let main_c : IVec S_ 1 := constantI S_ 1 1#1
  let main_v3 : IVec S_ 1 := (fun x v => Host.reduce IntOp.andi x v reducesTo_S1x16777216x3_S_d0_1_2 h_S_) main_v2 main_c
  let main_v4 : FVec F S3x3 .f32 := Host.absf main_arg2
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x3 .f32 := Host.absf main_arg4
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg5 main_arg6 main_arg7 main_v13 main_v16
-- ==== Kernel.lean ====
abbrev S1x16777216x2 : Shape := ⟨3, ![1, 16777216, 2]⟩
abbrev S1x16777216x3 : Shape := ⟨3, ![1, 16777216, 3]⟩
abbrev S3x3 : Shape := ⟨2, ![3, 3]⟩
abbrev S3 : Shape := ⟨1, ![3]⟩
abbrev S1x3 : Shape := ⟨2, ![1, 3]⟩
abbrev S1x8192x3 : Shape := ⟨3, ![1, 8192, 3]⟩
abbrev S8192x3 : Shape := ⟨2, ![8192, 3]⟩
abbrev S16777216x3 : Shape := ⟨2, ![16777216, 3]⟩
abbrev S1x16777216x1 : Shape := ⟨3, ![1, 16777216, 1]⟩
abbrev S16777216 : Shape := ⟨1, ![16777216]⟩
abbrev S_ : Shape := ⟨0, ![]⟩
abbrev S16777216x1 : Shape := ⟨2, ![16777216, 1]⟩
abbrev S16777216x4 : Shape := ⟨2, ![16777216, 4]⟩
abbrev S1048576x4 : Shape := ⟨2, ![1048576, 4]⟩
abbrev S1048576x3 : Shape := ⟨2, ![1048576, 3]⟩
abbrev S1048576x1 : Shape := ⟨2, ![1048576, 1]⟩
abbrev S1048576 : Shape := ⟨1, ![1048576]⟩
abbrev S1x1048576x3 : Shape := ⟨3, ![1, 1048576, 3]⟩

abbrev nBuf : Space → Nat
  | .hbm => 32
  | .vmem => 10
  | .smem => 0
  | _ => 0

abbrev bufTy : (tb : Table) → Fin (tcTables nBuf tb) → BufTy
  | .hbm, ⟨0, _⟩ => ⟨S1x16777216x2, .i32⟩
  | .hbm, ⟨1, _⟩ => ⟨S1x16777216x3, .f32⟩
  | .hbm, ⟨2, _⟩ => ⟨S3x3, .f32⟩
  | .hbm, ⟨3, _⟩ => ⟨S3, .f32⟩
  | .hbm, ⟨4, _⟩ => ⟨S3x3, .f32⟩
  | .hbm, ⟨5, _⟩ => ⟨S3, .f32⟩
  | .hbm, ⟨6, _⟩ => ⟨S3x3, .f32⟩
  | .hbm, ⟨7, _⟩ => ⟨S3, .f32⟩
  | .hbm, ⟨8, _⟩ => ⟨S1x3, .f32⟩
  | .hbm, ⟨9, _⟩ => ⟨S1x3, .f32⟩
  | .hbm, ⟨10, _⟩ => ⟨S1x3, .f32⟩
  | .hbm, ⟨11, _⟩ => ⟨S1x16777216x3, .f32⟩
  | .hbm, ⟨12, _⟩ => ⟨S16777216x3, .f32⟩
  | .hbm, ⟨13, _⟩ => ⟨S1x16777216x1, .i32⟩
  | .hbm, ⟨14, _⟩ => ⟨S16777216, .i32⟩
  | .hbm, ⟨15, _⟩ => ⟨S_, .f32⟩
  | .hbm, ⟨16, _⟩ => ⟨S16777216x1, .f32⟩
  | .hbm, ⟨17, _⟩ => ⟨S16777216x4, .f32⟩
  | .hbm, ⟨18, _⟩ => ⟨S_, .f32⟩
  | .hbm, ⟨19, _⟩ => ⟨S1048576x4, .f32⟩
  | .hbm, ⟨20, _⟩ => ⟨S16777216x1, .i32⟩
  | .hbm, ⟨21, _⟩ => ⟨S1048576x4, .f32⟩
  | .hbm, ⟨22, _⟩ => ⟨S1048576x3, .f32⟩
  | .hbm, ⟨23, _⟩ => ⟨S1048576x1, .f32⟩
  | .hbm, ⟨24, _⟩ => ⟨S1048576, .f32⟩
  | .hbm, ⟨25, _⟩ => ⟨S_, .f32⟩
  | .hbm, ⟨26, _⟩ => ⟨S1048576, .f32⟩
  | .hbm, ⟨27, _⟩ => ⟨S1048576, .f32⟩
  | .hbm, ⟨28, _⟩ => ⟨S1048576x1, .f32⟩
  | .hbm, ⟨29, _⟩ => ⟨S1048576x3, .f32⟩
  | .hbm, ⟨30, _⟩ => ⟨S1048576x3, .f32⟩
  | .hbm, ⟨31, _⟩ => ⟨S1x1048576x3, .f32⟩
  | .local _ .vmem, ⟨0, _⟩ => ⟨S1x8192x3, .f32⟩
  | .local _ .vmem, ⟨1, _⟩ => ⟨S1x8192x3, .f32⟩
  | .local _ .vmem, ⟨2, _⟩ => ⟨S3x3, .f32⟩
  | .local _ .vmem, ⟨3, _⟩ => ⟨S1x3, .f32⟩
  | .local _ .vmem, ⟨4, _⟩ => ⟨S3x3, .f32⟩
  | .local _ .vmem, ⟨5, _⟩ => ⟨S1x3, .f32⟩
  | .local _ .vmem, ⟨6, _⟩ => ⟨S3x3, .f32⟩
  | .local _ .vmem, ⟨7, _⟩ => ⟨S1x3, .f32⟩
  | .local _ .vmem, ⟨8, _⟩ => ⟨S1x8192x3, .f32⟩
  | .local _ .vmem, ⟨9, _⟩ => ⟨S1x8192x3, .f32⟩
  | _, _ => ⟨S1x16777216x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8192x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S3_S1x3 : S3.ShapeCasts S1x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S3x3_S3x3_0_0 : ∀ a, (![0, 0] : Fin 2 → Nat) a + S3x3.size a ≤ S3x3.size a
  h_S3x3 : 0 < S3x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  transposes_S3x3_p1_0_S3x3 : S3x3.Transposes [1, 0] S3x3
  broadcasts_S1x3_S8192x3 : S1x3.Broadcasts S8192x3
  shapeCasts_S8192x3_S1x8192x3 : S8192x3.ShapeCasts S1x8192x3
  shapeCasts_S1x16777216x3_S16777216x3 : S1x16777216x3.ShapeCasts S16777216x3
  slices_S1x16777216x2_S1x16777216x1_0_0_1 : S1x16777216x2.Slices ![0, 0, 1] S1x16777216x1
  shapeCasts_S1x16777216x1_S16777216 : S1x16777216x1.ShapeCasts S16777216
  bcast_S_S16777216x1 : S_.BroadcastsInDim S16777216x1 (![] : Fin 0 → Fin S16777216x1.rank)
  concatenates_S16777216x3_S16777216x1_S16777216x4_d1 : Shape.Concatenates [S16777216x3, S16777216x1] S16777216x4 1
  bcast_S_S1048576x4 : S_.BroadcastsInDim S1048576x4 (![] : Fin 0 → Fin S1048576x4.rank)
  bcast_S16777216_S16777216x1_0 : S16777216.BroadcastsInDim S16777216x1 (![0] : Fin 1 → Fin S16777216x1.rank)
  slices_S1048576x4_S1048576x3_0_0 : S1048576x4.Slices ![0, 0] S1048576x3
  slices_S1048576x4_S1048576x1_0_3 : S1048576x4.Slices ![0, 3] S1048576x1
  shapeCasts_S1048576x1_S1048576 : S1048576x1.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  bcast_S1048576x3_S1x1048576x3_1_2 : S1048576x3.BroadcastsInDim S1x1048576x3 (![1, 2] : Fin 2 → Fin S1x1048576x3.rank)
  dot_S8192x3_S3x3_S8192x3_1_0_0_1_n_n_wf : DotDims.WF S8192x3 S3x3 S8192x3 [1] [0] [0] [1] [] []
  scatter_S1048576x4_S16777216x1_S16777216x4_1_0_0_1_wf : ScatterDims.WF S1048576x4 S16777216x1 S16777216x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S1x16777216x3.size a
  hwx0_0 : ∀ i : grid0.Coords, EltTy.bits .f32 = 32 ∨ (Rect.block (s := S1x16777216x3) S1x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x3.size a ≤ S3x3.size a
  hwx0_5 : ∀ i : grid0.Coords, EltTy.bits .f32 = 32 ∨ (Rect.block (s := S3x3) S3x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8192x3.size a ≤ S1x16777216x3.size a
  hwx0_7 : ∀ i : grid0.Coords, EltTy.bits .f32 = 32 ∨ (Rect.block (s := S1x16777216x3) S1x8192x3.size (cc0_transform_7 i) (hinb0_7 i)).WholeWords (EltTy.packing .f32)

variable [Facts₀]

def dot_S8192x3_S3x3_S8192x3_1_0_0_1_n_n : DotDims S8192x3 S3x3 S8192x3 where
  lhsContracting := [1]
  rhsContracting := [0]
  lhsNonContracting := [0]
  rhsNonContracting := [1]
  lhsBatch := []
  rhsBatch := []
  wf := dot_S8192x3_S3x3_S8192x3_1_0_0_1_n_n_wf
def scatter_S1048576x4_S16777216x1_S16777216x4_1_0_0_1 : ScatterDims S1048576x4 S16777216x1 S16777216x4 where
  updateWindowDims := [1]
  insertedWindowDims := [0]
  scatterDimsToOperandDims := [0]
  indexVectorDim := 1
  wf := scatter_S1048576x4_S16777216x1_S16777216x4_1_0_0_1_wf

abbrev win0_0 : Pipeline.Window sig grid0 :=
  Pipeline.Window.ofSpec (Memref.whole main_arg1) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S3x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x8192x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x16777216x2 : Shape := ⟨3, ![1, 16777216, 2]⟩
abbrev S1x16777216x3 : Shape := ⟨3, ![1, 16777216, 3]⟩
abbrev S3x3 : Shape := ⟨2, ![3, 3]⟩
abbrev S3 : Shape := ⟨1, ![3]⟩
abbrev S16777216x3 : Shape := ⟨2, ![16777216, 3]⟩
abbrev S1x3 : Shape := ⟨2, ![1, 3]⟩
abbrev S16777216x2 : Shape := ⟨2, ![16777216, 2]⟩
abbrev S16777216x1 : Shape := ⟨2, ![16777216, 1]⟩
abbrev S16777216 : Shape := ⟨1, ![16777216]⟩
abbrev S_ : Shape := ⟨0, ![]⟩
abbrev S1048576x3 : Shape := ⟨2, ![1048576, 3]⟩
abbrev S1048576 : Shape := ⟨1, ![1048576]⟩
abbrev S1048576x1 : Shape := ⟨2, ![1048576, 1]⟩
abbrev S1x1048576x3 : Shape := ⟨3, ![1, 1048576, 3]⟩

abbrev nBuf : Space → Nat
  | .hbm => 44
  | .vmem => 0
  | .smem => 0
  | _ => 0

abbrev bufTy : (tb : Table) → Fin (tcTables nBuf tb) → BufTy
  | .hbm, ⟨0, _⟩ => ⟨S1x16777216x2, .i32⟩
  | .hbm, ⟨1, _⟩ => ⟨S1x16777216x3, .f32⟩
  | .hbm, ⟨2, _⟩ => ⟨S3x3, .f32⟩
  | .hbm, ⟨3, _⟩ => ⟨S3, .f32⟩
  | .hbm, ⟨4, _⟩ => ⟨S3x3, .f32⟩
  | .hbm, ⟨5, _⟩ => ⟨S3, .f32⟩
  | .hbm, ⟨6, _⟩ => ⟨S3x3, .f32⟩
  | .hbm, ⟨7, _⟩ => ⟨S3, .f32⟩
  | .hbm, ⟨8, _⟩ => ⟨S16777216x3, .f32⟩
  | .hbm, ⟨9, _⟩ => ⟨S3x3, .f32⟩
  | .hbm, ⟨10, _⟩ => ⟨S16777216x3, .f32⟩
  | .hbm, ⟨11, _⟩ => ⟨S1x3, .f32⟩
  | .hbm, ⟨12, _⟩ => ⟨S16777216x3, .f32⟩
  | .hbm, ⟨13, _⟩ => ⟨S16777216x3, .f32⟩
  | .hbm, ⟨14, _⟩ => ⟨S3x3, .f32⟩
  | .hbm, ⟨15, _⟩ => ⟨S16777216x3, .f32⟩
  | .hbm, ⟨16, _⟩ => ⟨S1x3, .f32⟩
  | .hbm, ⟨17, _⟩ => ⟨S16777216x3, .f32⟩
  | .hbm, ⟨18, _⟩ => ⟨S16777216x3, .f32⟩
  | .hbm, ⟨19, _⟩ => ⟨S3x3, .f32⟩
  | .hbm, ⟨20, _⟩ => ⟨S16777216x3, .f32⟩
  | .hbm, ⟨21, _⟩ => ⟨S1x3, .f32⟩
  | .hbm, ⟨22, _⟩ => ⟨S16777216x3, .f32⟩
  | .hbm, ⟨23, _⟩ => ⟨S16777216x3, .f32⟩
  | .hbm, ⟨24, _⟩ => ⟨S16777216x2, .i32⟩
  | .hbm, ⟨25, _⟩ => ⟨S16777216x1, .i32⟩
  | .hbm, ⟨26, _⟩ => ⟨S16777216, .i32⟩
  | .hbm, ⟨27, _⟩ => ⟨S_, .f32⟩
  | .hbm, ⟨28, _⟩ => ⟨S1048576x3, .f32⟩
  | .hbm, ⟨29, _⟩ => ⟨S16777216x1, .i32⟩
  | .hbm, ⟨30, _⟩ => ⟨S1048576x3, .f32⟩
  | .hbm, ⟨31, _⟩ => ⟨S_, .f32⟩
  | .hbm, ⟨32, _⟩ => ⟨S16777216, .f32⟩
  | .hbm, ⟨33, _⟩ => ⟨S_, .f32⟩
  | .hbm, ⟨34, _⟩ => ⟨S1048576, .f32⟩
  | .hbm, ⟨35, _⟩ => ⟨S16777216x1, .i32⟩
  | .hbm, ⟨36, _⟩ => ⟨S1048576, .f32⟩
  | .hbm, ⟨37, _⟩ => ⟨S_, .f32⟩
  | .hbm, ⟨38, _⟩ => ⟨S1048576, .f32⟩
  | .hbm, ⟨39, _⟩ => ⟨S1048576, .f32⟩
  | .hbm, ⟨40, _⟩ => ⟨S1048576x1, .f32⟩
  | .hbm, ⟨41, _⟩ => ⟨S1048576x3, .f32⟩
  | .hbm, ⟨42, _⟩ => ⟨S1048576x3, .f32⟩
  | .hbm, ⟨43, _⟩ => ⟨S1x1048576x3, .f32⟩
  | _, _ => ⟨S1x16777216x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S1x16777216x3_S16777216x3 : S1x16777216x3.ShapeCasts S16777216x3
  transposes_S3x3_S3x3_1_0 : S3x3.Transposes [1, 0] S3x3
  bcast_S3_S1x3_1 : S3.BroadcastsInDim S1x3 (![1] : Fin 1 → Fin S1x3.rank)
  bcast_S1x3_S16777216x3_0_1 : S1x3.BroadcastsInDim S16777216x3 (![0, 1] : Fin 2 → Fin S16777216x3.rank)
  shapeCasts_S1x16777216x2_S16777216x2 : S1x16777216x2.ShapeCasts S16777216x2
  slices_S16777216x2_S16777216x1_0_1 : S16777216x2.Slices ![0, 1] S16777216x1
  shapeCasts_S16777216x1_S16777216 : S16777216x1.ShapeCasts S16777216
  bcast_S_S1048576x3 : S_.BroadcastsInDim S1048576x3 (![] : Fin 0 → Fin S1048576x3.rank)
  bcast_S16777216_S16777216x1_0 : S16777216.BroadcastsInDim S16777216x1 (![0] : Fin 1 → Fin S16777216x1.rank)
  bcast_S_S16777216 : S_.BroadcastsInDim S16777216 (![] : Fin 0 → Fin S16777216.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  bcast_S1048576x3_S1x1048576x3_1_2 : S1048576x3.BroadcastsInDim S1x1048576x3 (![1, 2] : Fin 2 → Fin S1x1048576x3.rank)
  dot_S16777216x3_S3x3_S16777216x3_1_0_0_1_n_n_wf : DotDims.WF S16777216x3 S3x3 S16777216x3 [1] [0] [0] [1] [] []
  scatter_S1048576x3_S16777216x1_S16777216x3_1_0_0_1_wf : ScatterDims.WF S1048576x3 S16777216x1 S16777216x3 [1] [0] [0] 1
  scatter_S1048576_S16777216x1_S16777216_n_0_0_1_wf : ScatterDims.WF S1048576 S16777216x1 S16777216 [] [0] [0] 1

variable [Facts₀]

def dot_S16777216x3_S3x3_S16777216x3_1_0_0_1_n_n : DotDims S16777216x3 S3x3 S16777216x3 where
  lhsContracting := [1]
  rhsContracting := [0]
  lhsNonContracting := [0]
  rhsNonContracting := [1]
  lhsBatch := []
  rhsBatch := []
  wf := dot_S16777216x3_S3x3_S16777216x3_1_0_0_1_n_n_wf
def scatter_S1048576x3_S16777216x1_S16777216x3_1_0_0_1 : ScatterDims S1048576x3 S16777216x1 S16777216x3 where
  updateWindowDims := [1]
  insertedWindowDims := [0]
  scatterDimsToOperandDims := [0]
  indexVectorDim := 1
  wf := scatter_S1048576x3_S16777216x1_S16777216x3_1_0_0_1_wf
def scatter_S1048576_S16777216x1_S16777216_n_0_0_1 : ScatterDims S1048576 S16777216x1 S16777216 where
  updateWindowDims := []
  insertedWindowDims := [0]
  scatterDimsToOperandDims := [0]
  indexVectorDim := 1
  wf := scatter_S1048576_S16777216x1_S16777216_n_0_0_1_wf

class Facts : Prop extends Facts₀ where

variable [Facts]
-- ==== Proof.Spec.lean ====
/-
  The function both programs compute, index by index, on the extended reals.

  Every node e carries a row of three coordinates. Three affine layers are applied to the row, one after the other:
  a layer sends a row x to the row whose entry j is the dot product of x with row j of the layer's weight table, plus
  entry j of its bias. Every node also names a segment, by the second component of its edge, read as a signed
  integer. Entry (s, j) of the result is the sum, over the nodes whose segment is s, of entry j of the node's final
  row, divided by the larger of the number of those nodes and one. A node whose integer names no segment is
  counted nowhere.
-/
import Idealize.ShloMosaic.PureOps.Ideal
import Idealize.ShloMosaic.Lib.ValueIdx

noncomputable section

namespace Cert.SegMean

open Idealize.ShloMosaic Idealize.ShloMosaic.ValueIdx

/-- One affine layer on a row of three entries: entry j is the row's dot product with row j of the weight table,
    plus entry j of the bias. -/
def lin (W : (⟨2, ![3, 3]⟩ : Shape).Idx → EReal) (b : Fin 3 → EReal) (x : Fin 3 → EReal) (j : Fin 3) : EReal :=
  (∑ k : Fin 3, x k * W (ix2 j k)) + b j

/-- The three layers, one after the other. -/
def chain (W1 : (⟨2, ![3, 3]⟩ : Shape).Idx → EReal) (b1 : Fin 3 → EReal)
    (W2 : (⟨2, ![3, 3]⟩ : Shape).Idx → EReal) (b2 : Fin 3 → EReal)
    (W4 : (⟨2, ![3, 3]⟩ : Shape).Idx → EReal) (b4 : Fin 3 → EReal) (x : Fin 3 → EReal) : Fin 3 → EReal :=
  lin W4 b4 (lin W2 b2 (lin W1 b1 x))

/-- The table of final rows: row e is the three layers applied to node e's coordinates. -/
def feat (coor : (⟨3, ![1, 16777216, 3]⟩ : Shape).Idx → EReal)
    (W1 : (⟨2, ![3, 3]⟩ : Shape).Idx → EReal) (b1 : (⟨1, ![3]⟩ : Shape).Idx → EReal)
    (W2 : (⟨2, ![3, 3]⟩ : Shape).Idx → EReal) (b2 : (⟨1, ![3]⟩ : Shape).Idx → EReal)
    (W4 : (⟨2, ![3, 3]⟩ : Shape).Idx → EReal) (b4 : (⟨1, ![3]⟩ : Shape).Idx → EReal) :
    (⟨2, ![16777216, 3]⟩ : Shape).Idx → EReal :=
  fun i => chain W1 (fun j => b1 (ix1 j)) W2 (fun j => b2 (ix1 j)) W4 (fun j => b4 (ix1 j))
    (fun k => coor (ix3 0 (i 0) k)) (i 1)

/-- Node e's segment: the second component of its edge, read signed. -/
def seg (edges : (⟨3, ![1, 16777216, 2]⟩ : Shape).Idx → BitVec 32) (e : Fin 16777216) : Int :=
  (edges (ix3 0 e 1)).toInt

/-- The sum over the nodes of segment s of column j of a table of rows, on top of the zero word. -/
def segSum (sg : Fin 16777216 → Int) (h : (⟨2, ![16777216, 3]⟩ : Shape).Idx → EReal)
    (s : Fin 1048576) (j : Fin 3) : EReal :=
  Ideal.ofBits .f32 0x00000000#32 + ∑ e : Fin 16777216, if sg e = (s.val : Int) then h (ix2 e j) else 0

/-- The number of nodes of segment s, counted by adding the word of one per node on top of the zero word. -/
def segCount (sg : Fin 16777216 → Int) (s : Fin 1048576) : EReal :=
  Ideal.ofBits .f32 0x00000000#32
    + ∑ e : Fin 16777216, if sg e = (s.val : Int) then Ideal.ofBits .f32 0x3F800000#32 else 0

/-- The mean over each segment: the segment's sum divided by the larger of its count and one. -/
def mean (sg : Fin 16777216 → Int) (h : (⟨2, ![16777216, 3]⟩ : Shape).Idx → EReal) :
    (⟨3, ![1, 1048576, 3]⟩ : Shape).Idx → EReal :=
  fun i => Ideal.div (segSum sg h (i 1) (i 2)) (max (segCount sg (i 1)) (Ideal.ofBits .f32 0x3F800000#32))

end Cert.SegMean

end
-- ==== Proof.KerRow.lean ====
/-
  What the kernel's body writes, entry by entry.

  The body loads a block of 8192 rows of three coordinates, the three weight tables and the three biases (each a
  table of one row), and stores the rows after three layers: each layer multiplies the block by the transposed
  weight table into a zero accumulator and adds the bias row to every row. So entry (r, j) of the stored block is
  the three affine layers of the specification applied to row r of the loaded block, read at j.
-/
import proofs.«100394_j63350767616428_1_alg».proof.Proof.Gen.KernelIdeal.Skeleton
import proofs.«100394_j63350767616428_1_alg».proof.Proof.Spec
import Idealize.ShloMosaic.Lib.ValueIdx
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.TcCoe
open Idealize.ShloMosaic.ValueIdx Cert.SegMean

/-! ## The operand indices of the block's matrix product -/

theorem lhs_0 (i : S8192x3.Idx) (q : dot_S8192x3_S3x3_S8192x3_1_0_0_1_n_n.contr.Idx) :
    (dot_S8192x3_S3x3_S8192x3_1_0_0_1_n_n.lhsIdx i q 0).val = (i 0).val := by
  unfold DotDims.lhsIdx
  rw [dif_neg (show ¬(0 : Fin S8192x3.rank) ∈ dot_S8192x3_S3x3_S8192x3_1_0_0_1_n_n.lhsBatch by decide), dif_pos (show (0 : Fin S8192x3.rank) ∈ dot_S8192x3_S3x3_S8192x3_1_0_0_1_n_n.lhsNonContracting by decide)]
  rfl
theorem lhs_1 (i : S8192x3.Idx) (q : dot_S8192x3_S3x3_S8192x3_1_0_0_1_n_n.contr.Idx) :
    (dot_S8192x3_S3x3_S8192x3_1_0_0_1_n_n.lhsIdx i q 1).val = (q ⟨0, by decide⟩).val :=
  dot_S8192x3_S3x3_S8192x3_1_0_0_1_n_n.lhsIdx_val_of_single rfl i q
theorem rhs_0 (i : S8192x3.Idx) (q : dot_S8192x3_S3x3_S8192x3_1_0_0_1_n_n.contr.Idx) :
    (dot_S8192x3_S3x3_S8192x3_1_0_0_1_n_n.rhsIdx i q 0).val = (q ⟨0, by decide⟩).val :=
  dot_S8192x3_S3x3_S8192x3_1_0_0_1_n_n.rhsIdx_val_of_single rfl i q
theorem rhs_1 (i : S8192x3.Idx) (q : dot_S8192x3_S3x3_S8192x3_1_0_0_1_n_n.contr.Idx) :
    (dot_S8192x3_S3x3_S8192x3_1_0_0_1_n_n.rhsIdx i q 1).val = (i 1).val := by
  unfold DotDims.rhsIdx
  rw [dif_neg (show ¬(1 : Fin S3x3.rank) ∈ dot_S8192x3_S3x3_S8192x3_1_0_0_1_n_n.rhsBatch by decide), dif_pos (show (1 : Fin S3x3.rank) ∈ dot_S8192x3_S3x3_S8192x3_1_0_0_1_n_n.rhsNonContracting by decide)]
  rfl

/-- The block's product into a zero accumulator, at entry (r, j): the sum over k of the block's entry (r, k) times
    the table's entry (k, j). -/
theorem mm_apply (y : FVec Ideal S8192x3 .f32) (w : FVec Ideal S3x3 .f32) (r : Fin 8192) (j : Fin 3) :
    matmul dot_S8192x3_S3x3_S8192x3_1_0_0_1_n_n none y w (constant S8192x3 .f32 0x00000000#32) (ix2 r j)
      = ∑ k : Fin 3, y (ix2 r k) * w (ix2 k j) := by
  simp only [matmul]
  rw [Ideal.matmul_constant_zero_apply, ← Equiv.sum_comp (ValueIdx.contrEquiv1 dot_S8192x3_S3x3_S8192x3_1_0_0_1_n_n 3 rfl rfl).symm]
  refine Finset.sum_congr rfl fun k _ => ?_
  have hk := ValueIdx.contrEquiv1_symm_val dot_S8192x3_S3x3_S8192x3_1_0_0_1_n_n 3 rfl rfl k
  have el : dot_S8192x3_S3x3_S8192x3_1_0_0_1_n_n.lhsIdx (ix2 r j) ((ValueIdx.contrEquiv1 dot_S8192x3_S3x3_S8192x3_1_0_0_1_n_n 3 rfl rfl).symm k) = ix2 r k := funext fun a => Fin.ext (by
    match a with
    | ⟨0, _⟩ => exact lhs_0 _ _
    | ⟨1, _⟩ => exact (lhs_1 _ _).trans hk)
  have er : dot_S8192x3_S3x3_S8192x3_1_0_0_1_n_n.rhsIdx (ix2 r j) ((ValueIdx.contrEquiv1 dot_S8192x3_S3x3_S8192x3_1_0_0_1_n_n 3 rfl rfl).symm k) = ix2 k j := funext fun a => Fin.ext (by
    match a with
    | ⟨0, _⟩ => exact (rhs_0 _ _).trans hk
    | ⟨1, _⟩ => exact rhs_1 _ _)
  rw [el, er]

/-! ## One layer, and the body's stored value -/

/-- One layer as the body computes it: the block times the transposed weight table into zeros, plus the bias row
    spread over the rows. -/
def layer (y : FVec Ideal S8192x3 .f32) (W : FVec Ideal S3x3 .f32) (b : FVec Ideal S1x3 .f32) : FVec Ideal S8192x3 .f32 :=
  addf (matmul dot_S8192x3_S3x3_S8192x3_1_0_0_1_n_n none y (transpose S3x3 [1, 0] W transposes_S3x3_p1_0_S3x3)
      (constant S8192x3 .f32 0x00000000#32))
    (broadcastTo S8192x3 (shapeCast S1x3 b shapeCasts_S1x3_S1x3) broadcasts_S1x3_S8192x3)

/-- Entry (r, j) of a layer is the affine layer of the specification applied to row r. -/
theorem layer_apply (y : FVec Ideal S8192x3 .f32) (W : FVec Ideal S3x3 .f32) (b : FVec Ideal S1x3 .f32)
    (r : Fin 8192) (j : Fin 3) :
    layer y W b (ix2 r j) = lin W (fun j => b (ix2 0 j)) (fun k => y (ix2 r k)) j := by
  unfold layer lin
  rw [addf_apply, mm_apply, shapeCast_self]
  congr 1
  · refine Finset.sum_congr rfl fun k _ => ?_
    congr 1
    exact transpose_apply [1, 0] W transposes_S3x3_p1_0_S3x3 (ix2 k j) (ix2 j k) (fun b => match b with
      | ⟨0, _⟩ => rfl
      | ⟨1, _⟩ => rfl)
  · exact broadcastTo_apply b broadcasts_S1x3_S8192x3 (ix2 r j) (ix2 0 j) (fun a => match a with
      | ⟨0, _⟩ => by show (0 : Nat) = if (1 : Nat) = 1 then 0 else _; rw [if_pos rfl]
      | ⟨1, _⟩ => by show j.val = if (3 : Nat) = 1 then 0 else _; rw [if_neg (by decide)]; rfl)

/-- The value the body stores, at entry (0, r, j): the three layers applied to row r of the loaded block. -/
theorem pay_apply (v0 : Vec Ideal S1x8192x3 .f32) (v2 : Vec Ideal S3x3 .f32) (v3 : Vec Ideal S1x3 .f32)
    (v5 : Vec Ideal S3x3 .f32) (v6 : Vec Ideal S1x3 .f32) (v8 : Vec Ideal S3x3 .f32) (v9 : Vec Ideal S1x3 .f32)
    (r : Fin 8192) (j : Fin 3) :
    k0_pay1 (F := Ideal) v0 v2 v3 v5 v6 v8 v9 (ix3 0 r j)
      = chain v2 (fun j => v3 (ix2 0 j)) v5 (fun j => v6 (ix2 0 j)) v8 (fun j => v9 (ix2 0 j))
          (fun k => v0 (ix3 0 r k)) j := by
  show shapeCast S1x8192x3 (layer (layer (layer (shapeCast S8192x3 v0 shapeCasts_S1x8192x3_S8192x3) v2 v3) v5 v6) v8 v9)
      shapeCasts_S8192x3_S1x8192x3 (ix3 0 r j) = _
  rw [shapeCast_apply _ shapeCasts_S8192x3_S1x8192x3 (ix3 0 r j) (ix2 r j)
    (by rewrite [Shape.rowMajor_val_two, Shape.rowMajor_val_three]; show r.val * 3 + j.val = (0 * 8192 + r.val) * 3 + j.val; omega)]
  unfold chain
  rw [layer_apply]
  refine congrFun (congrArg (lin _ _) (funext fun k => ?_)) _
  rw [layer_apply]
  refine congrFun (congrArg (lin _ _) (funext fun k' => ?_)) _
  rw [layer_apply]
  refine congrFun (congrArg (lin _ _) (funext fun k'' => ?_)) _
  exact shapeCast_apply v0 shapeCasts_S1x8192x3_S8192x3 (ix2 r k'') (ix3 0 r k'')
    (by rewrite [Shape.rowMajor_val_three, Shape.rowMajor_val_two]; show (0 * 8192 + r.val) * 3 + k''.val = r.val * 3 + k''.val; omega)

end Cert.KernelIdeal.KerValue

end
-- ==== Proof.KerIndex.lean ====
/-
  The block each window reads or writes at a grid point.

  The grid has 2048 points on one axis. At point t the coordinate window and the result window both address block
  (0, t, 0) of their arrays — rows 8192·t to 8192·t + 8191 —, and the six weight and bias windows address their one
  block (0, 0), whatever the point.
-/
import proofs.«100394_j63350767616428_1_alg».proof.Proof.Gen.KernelIdeal.Points

namespace Cert.KernelIdeal.KerValue

open Cert.KernelIdeal Cert.KernelIdeal.Gen Idealize.ShloMosaic Idealize.ShloMosaic.TcCoe

/-- The coordinate window's block index at point t is (0, t, 0). -/
theorem index_in : ∀ t : Fin cfg0.N, win0_0.index t (0 : Fin 3) = 0 ∧ win0_0.index t (1 : Fin 3) = t.val
    ∧ win0_0.index t (2 : Fin 3) = 0 :=
  (by decide +kernel : ∀ t : Fin grid0.N, win0_0.index t (0 : Fin 3) = 0 ∧ win0_0.index t (1 : Fin 3) = t.val
    ∧ win0_0.index t (2 : Fin 3) = 0)

/-- The result window's block index at point t is (0, t, 0). -/
theorem index_out : ∀ t : Fin cfg0.N, win0_7.index t (0 : Fin 3) = 0 ∧ win0_7.index t (1 : Fin 3) = t.val
    ∧ win0_7.index t (2 : Fin 3) = 0 :=
  (by decide +kernel : ∀ t : Fin grid0.N, win0_7.index t (0 : Fin 3) = 0 ∧ win0_7.index t (1 : Fin 3) = t.val
    ∧ win0_7.index t (2 : Fin 3) = 0)

/-- The weight and bias windows' block index is (0, 0) at every point. -/
theorem index_par : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0)

end Cert.KernelIdeal.KerValue
-- ==== Proof.KerBlocks.lean ====
/-
  The array the kernel's region leaves: row e is the three layers applied to node e's coordinates.

  At grid point t the body reads rows 8192·t … 8192·t + 8191 of the coordinates and the whole weight tables and
  biases (the biases as the one-row tables the lines before the region made of them), and writes the same rows of
  the result. The 2048 blocks tile the result array, so after the region it holds, at (0, e, j), entry (e, j) of the
  specification's table of final rows.
-/
import proofs.«100394_j63350767616428_1_alg».proof.Proof.Gen.KernelIdeal.Frame
import proofs.«100394_j63350767616428_1_alg».proof.Proof.KerRow
import proofs.«100394_j63350767616428_1_alg».proof.Proof.KerIndex
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.SegMean
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array after the region, as a function of the arguments: at (0, e, j), entry (e, j) of the table of
    final rows. -/
def rows (c : Dev nD) : S1x16777216x3.Idx → Elt Ideal .f32 := fun i =>
  feat (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (ix2 (i 1) (i 2))

/-! ## The one-row bias tables the lines before the region write -/

theorem V_b1 (c : Dev nD) (j : Fin 3) : V m c main_v0 (ix2 0 j) = m ((c : Thread nD τ).loc main_arg3) (ix1 j) := by
  have e : (V m c main_v0 : S1x3.Idx → Elt Ideal .f32)
      = shapeCast S1x3 (m ((c : Thread nD τ).loc main_arg3)) shapeCasts_S3_S1x3 := by
    show StableHlo.after hostOps0 (fun b => m (c, b)) (Proc.devRef .tc main_v0) = _
    after_results
    rfl
  rw [e]
  exact shapeCast_apply _ shapeCasts_S3_S1x3 (ix2 0 j) (ix1 j)
    (by rewrite [Shape.rowMajor_val_one, Shape.rowMajor_val_two]; show j.val = 0 * 3 + j.val; omega)

theorem V_b2 (c : Dev nD) (j : Fin 3) : V m c main_v1 (ix2 0 j) = m ((c : Thread nD τ).loc main_arg5) (ix1 j) := by
  have e : (V m c main_v1 : S1x3.Idx → Elt Ideal .f32)
      = shapeCast S1x3 (m ((c : Thread nD τ).loc main_arg5)) shapeCasts_S3_S1x3 := by
    show StableHlo.after hostOps0 (fun b => m (c, b)) (Proc.devRef .tc main_v1) = _
    after_results
    rfl
  rw [e]
  exact shapeCast_apply _ shapeCasts_S3_S1x3 (ix2 0 j) (ix1 j)
    (by rewrite [Shape.rowMajor_val_one, Shape.rowMajor_val_two]; show j.val = 0 * 3 + j.val; omega)

theorem V_b4 (c : Dev nD) (j : Fin 3) : V m c main_v2 (ix2 0 j) = m ((c : Thread nD τ).loc main_arg7) (ix1 j) := by
  have e : (V m c main_v2 : S1x3.Idx → Elt Ideal .f32)
      = shapeCast S1x3 (m ((c : Thread nD τ).loc main_arg7)) shapeCasts_S3_S1x3 := by
    show StableHlo.after hostOps0 (fun b => m (c, b)) (Proc.devRef .tc main_v2) = _
    after_results
    rfl
  rw [e]
  exact shapeCast_apply _ shapeCasts_S3_S1x3 (ix2 0 j) (ix1 j)
    (by rewrite [Shape.rowMajor_val_one, Shape.rowMajor_val_two]; show j.val = 0 * 3 + j.val; omega)

/-! ## The input blocks at a point -/

/-- A weight window's block is the whole weight table. -/
theorem blk_W1 (c : Dev nD) (t : Fin cfg0.N) : (iblk m c 1 t : S3x3.Idx → Elt Ideal .f32) = m ((c : Thread nD τ).loc main_arg2) := by
  obtain ⟨a0, a1, -⟩ := index_par t
  rw [← V_main_arg2 m c]
  funext y
  show V m c main_arg2 (((cfg0.win 1).blk t).view.emb y) = V m c main_arg2 y
  congr 1
  funext a; apply Fin.ext
  match a with
  | ⟨0, _⟩ => show win0_1.index t (0 : Fin 2) * 3 + 1 * (y 0).val = (y 0).val; omega
  | ⟨1, _⟩ => show win0_1.index t (1 : Fin 2) * 3 + 1 * (y 1).val = (y 1).val; omega

theorem blk_W2 (c : Dev nD) (t : Fin cfg0.N) : (iblk m c 3 t : S3x3.Idx → Elt Ideal .f32) = m ((c : Thread nD τ).loc main_arg4) := by
  obtain ⟨-, -, -, -, a0, a1, -⟩ := index_par t
  rw [← V_main_arg4 m c]
  funext y
  show V m c main_arg4 (((cfg0.win 3).blk t).view.emb y) = V m c main_arg4 y
  congr 1
  funext a; apply Fin.ext
  match a with
  | ⟨0, _⟩ => show win0_3.index t (0 : Fin 2) * 3 + 1 * (y 0).val = (y 0).val; omega
  | ⟨1, _⟩ => show win0_3.index t (1 : Fin 2) * 3 + 1 * (y 1).val = (y 1).val; omega

theorem blk_W4 (c : Dev nD) (t : Fin cfg0.N) : (iblk m c 5 t : S3x3.Idx → Elt Ideal .f32) = m ((c : Thread nD τ).loc main_arg6) := by
  obtain ⟨-, -, -, -, -, -, -, -, a0, a1, -⟩ := index_par t
  rw [← V_main_arg6 m c]
  funext y
  show V m c main_arg6 (((cfg0.win 5).blk t).view.emb y) = V m c main_arg6 y
  congr 1
  funext a; apply Fin.ext
  match a with
  | ⟨0, _⟩ => show win0_5.index t (0 : Fin 2) * 3 + 1 * (y 0).val = (y 0).val; omega
  | ⟨1, _⟩ => show win0_5.index t (1 : Fin 2) * 3 + 1 * (y 1).val = (y 1).val; omega

/-- A bias window's block at (0, j) is entry j of the bias. -/
theorem blk_b1 (c : Dev nD) (t : Fin cfg0.N) (j : Fin 3) : iblk m c 2 t (ix2 0 j) = m ((c : Thread nD τ).loc main_arg3) (ix1 j) := by
  obtain ⟨-, -, a0, a1, -⟩ := index_par t
  rw [← V_b1 m c j]
  show V m c main_v0 (((cfg0.win 2).blk t).view.emb (ix2 0 j)) = V m c main_v0 (ix2 0 j)
  congr 1
  funext a; apply Fin.ext
  match a with
  | ⟨0, _⟩ => show win0_2.index t (0 : Fin 2) * 1 + 1 * 0 = 0; omega
  | ⟨1, _⟩ => show win0_2.index t (1 : Fin 2) * 3 + 1 * j.val = j.val; omega

theorem blk_b2 (c : Dev nD) (t : Fin cfg0.N) (j : Fin 3) : iblk m c 4 t (ix2 0 j) = m ((c : Thread nD τ).loc main_arg5) (ix1 j) := by
  obtain ⟨-, -, -, -, -, -, a0, a1, -⟩ := index_par t
  rw [← V_b2 m c j]
  show V m c main_v1 (((cfg0.win 4).blk t).view.emb (ix2 0 j)) = V m c main_v1 (ix2 0 j)
  congr 1
  funext a; apply Fin.ext
  match a with
  | ⟨0, _⟩ => show win0_4.index t (0 : Fin 2) * 1 + 1 * 0 = 0; omega
  | ⟨1, _⟩ => show win0_4.index t (1 : Fin 2) * 3 + 1 * j.val = j.val; omega

theorem blk_b4 (c : Dev nD) (t : Fin cfg0.N) (j : Fin 3) : iblk m c 6 t (ix2 0 j) = m ((c : Thread nD τ).loc main_arg7) (ix1 j) := by
  obtain ⟨-, -, -, -, -, -, -, -, -, -, a0, a1⟩ := index_par t
  rw [← V_b4 m c j]
  show V m c main_v2 (((cfg0.win 6).blk t).view.emb (ix2 0 j)) = V m c main_v2 (ix2 0 j)
  congr 1
  funext a; apply Fin.ext
  match a with
  | ⟨0, _⟩ => show win0_6.index t (0 : Fin 2) * 1 + 1 * 0 = 0; omega
  | ⟨1, _⟩ => show win0_6.index t (1 : Fin 2) * 3 + 1 * j.val = j.val; omega

/-- Row r of the coordinate block at point t is row 8192·t + r of the coordinates. -/
theorem blk_x (c : Dev nD) (t : Fin cfg0.N) (r : Fin 8192) (k : Fin 3) (e : Fin 16777216) (he : e.val = t.val * 8192 + r.val) :
    iblk m c 0 t (ix3 0 r k) = m ((c : Thread nD τ).loc main_arg1) (ix3 0 e k) := by
  obtain ⟨a0, a1, a2⟩ := index_in t
  rw [← V_main_arg1 m c]
  show V m c main_arg1 (((cfg0.win 0).blk t).view.emb (ix3 0 r k)) = V m c main_arg1 (ix3 0 e k)
  congr 1
  funext a; apply Fin.ext
  match a with
  | ⟨0, _⟩ => show win0_0.index t (0 : Fin 3) * 1 + 1 * 0 = 0; omega
  | ⟨1, _⟩ => show win0_0.index t (1 : Fin 3) * 8192 + 1 * r.val = e.val; omega
  | ⟨2, _⟩ => show win0_0.index t (2 : Fin 3) * 3 + 1 * k.val = k.val; omega

end Cert.KernelIdeal.KerValue

end
-- ==== Proof.KerArray.lean ====
/-
  The region's result array is the table of final rows.

  What point t writes back is block t of that table: entry (0, r, j) of the block is the three layers applied to
  row r of the coordinate block at t, which is row 8192·t + r of the coordinates. Every index (0, e, j) of the array
  lies in the block of point e / 8192, and every point writes its block back, so after the region the whole array
  is the table.
-/
import proofs.«100394_j63350767616428_1_alg».proof.Proof.KerBlocks

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.SegMean
open Idealize.ShloMosaic.Pipeline (Dat Cfg Window)

variable (m : (ℓ : Loc nD τ sig) → Buf (Elt Ideal) ℓ)

/-- The stored value at any index of the block: the three layers applied to the index's row of the loaded block. -/
theorem pay_at (v0 : Vec Ideal S1x8192x3 .f32) (v2 : Vec Ideal S3x3 .f32) (v3 : Vec Ideal S1x3 .f32)
    (v5 : Vec Ideal S3x3 .f32) (v6 : Vec Ideal S1x3 .f32) (v8 : Vec Ideal S3x3 .f32) (v9 : Vec Ideal S1x3 .f32)
    (y : S1x8192x3.Idx) :
    k0_pay1 (F := Ideal) v0 v2 v3 v5 v6 v8 v9 y
      = chain v2 (fun j => v3 (ix2 0 j)) v5 (fun j => v6 (ix2 0 j)) v8 (fun j => v9 (ix2 0 j))
          (fun k => v0 (ix3 0 (y 1) k)) (y 2) := by
  obtain ⟨z, r, j, rfl⟩ : ∃ (z : Fin 1) (r : Fin 8192) (j : Fin 3), y = ix3 z r j := ⟨y 0, y 1, y 2, eq_ix3 y⟩
  obtain rfl : z = 0 := Subsingleton.elim _ _
  exact pay_apply v0 v2 v3 v5 v6 v8 v9 r j

/-- What point t writes back is block t of the table of final rows. -/
theorem flushed_eq (c : Dev nD) (t : Fin cfg0.N) :
    (dats m 0 c).flushed 7 t = ((cfg0.win 7).blk t).view.read (Elt Ideal) (rows m c) := by
  show (cfg0.win 7).cut (grid0.coords t) ((dats m 0 c).after 7 t) = _
  rw [after0_7]
  unfold out0_7
  rw [View.canon_unit_zero hz3]
  simp only [View.ld_unit_zero (S := S1x8192x3) hz3, View.ld_unit_zero (S := S3x3) hz2, View.ld_unit_zero (S := S1x3) hz2]
  obtain ⟨o0, o1, o2⟩ := index_out t
  funext y
  show k0_pay1 (F := Ideal) (iblk m c 0 t) (iblk m c 1 t) (iblk m c 2 t) (iblk m c 3 t) (iblk m c 4 t) (iblk m c 5 t) (iblk m c 6 t) y
    = rows m c (((cfg0.win 7).blk t).view.emb y)
  refine (pay_at (iblk m c 0 t) (iblk m c 1 t) (iblk m c 2 t) (iblk m c 3 t) (iblk m c 4 t) (iblk m c 5 t) (iblk m c 6 t) y).trans ?_
  have hy1 : (y 1).val < 8192 := (y 1).isLt
  have h1 : ((((cfg0.win 7).blk t).view.emb y) 1).val = t.val * 8192 + (y 1).val := by
    show win0_7.index t (1 : Fin 3) * 8192 + 1 * (y 1).val = _; omega
  have h2 : ((((cfg0.win 7).blk t).view.emb y) 2).val = (y 2).val := by
    show win0_7.index t (2 : Fin 3) * 3 + 1 * (y 2).val = _; omega
  unfold rows feat
  rw [blk_W1, blk_W2, blk_W4]
  have e2 : ((((cfg0.win 7).blk t).view.emb y) 2) = y 2 := Fin.ext h2
  show chain _ (fun j => iblk m c 2 t (ix2 0 j)) _ (fun j => iblk m c 4 t (ix2 0 j)) _ (fun j => iblk m c 6 t (ix2 0 j))
      (fun k => iblk m c 0 t (ix3 0 (y 1) k)) (y 2)
    = chain _ _ _ _ _ _ (fun k => m ((c : Thread nD τ).loc main_arg1) (ix3 0 ((((cfg0.win 7).blk t).view.emb y) 1) k))
        ((((cfg0.win 7).blk t).view.emb y) 2)
  rw [e2]
  congr 1
  · funext j; exact blk_b1 m c t j
  · funext j; exact blk_b2 m c t j
  · funext j; exact blk_b4 m c t j
  · funext k; exact blk_x m c t (y 1) k _ h1

/-- An index of the array is in point t's block iff each coordinate is in the block's range on its axis. -/
theorem mem_blk (t : Fin cfg0.N) (i : S1x16777216x3.Idx) :
    i ∈ ((cfg0.win 7).blk t).view.set ↔ ∀ a : Fin 3, win0_7.index t a * S1x8192x3.size a ≤ (i a).val ∧ (i a).val < win0_7.index t a * S1x8192x3.size a + S1x8192x3.size a := by
  show i ∈ ((View.whole main_v3).slice (win0_7.rect t)).set ↔ _
  rw [View.set_slice_whole, Rect.mem_set_unit]
  exact Iff.rfl

/-- Every index of the array is in the block of the point its row falls in, and that point writes back. -/
theorem cover (i : S1x16777216x3.Idx) :
    ∃ t : Fin cfg0.N, (cfg0.win 7).flush t = true ∧ i ∈ ((cfg0.win 7).blk t).view.set := by
  have hi0 : (i 0).val < 1 := (i 0).isLt
  have hi1 : (i 1).val < 16777216 := (i 1).isLt
  have hi2 : (i 2).val < 3 := (i 2).isLt
  have hN : (i 1).val / 8192 < cfg0.N := by rw [show cfg0.N = grid0.N from rfl, N_0]; omega
  obtain ⟨o0, o1, o2⟩ := index_out ⟨(i 1).val / 8192, hN⟩
  refine ⟨⟨(i 1).val / 8192, hN⟩, flush0_7 _, ?_⟩
  rw [mem_blk]
  intro a
  match a with
  | ⟨0, _⟩ => show win0_7.index ⟨(i 1).val / 8192, hN⟩ (0 : Fin 3) * 1 ≤ (i 0).val ∧ (i 0).val < win0_7.index ⟨(i 1).val / 8192, hN⟩ (0 : Fin 3) * 1 + 1; omega
  | ⟨1, _⟩ => show win0_7.index ⟨(i 1).val / 8192, hN⟩ (1 : Fin 3) * 8192 ≤ (i 1).val ∧ (i 1).val < win0_7.index ⟨(i 1).val / 8192, hN⟩ (1 : Fin 3) * 8192 + 8192; simp only [] at o1; omega
  | ⟨2, _⟩ => show win0_7.index ⟨(i 1).val / 8192, hN⟩ (2 : Fin 3) * 3 ≤ (i 2).val ∧ (i 2).val < win0_7.index ⟨(i 1).val / 8192, hN⟩ (2 : Fin 3) * 3 + 3; omega

/-- After the region the result array is the table of final rows. -/
theorem final (c : Dev nD) : (dats m 0 c).arrAt 7 cfg0.N = rows m c :=
  (dats m 0 c).arrAt_eq_of_cover 7 (rows m c) (fun t _ => flushed_eq m c t) cover

end Cert.KernelIdeal.KerValue

end
-- ==== Proof.LibRowIndex.lean ====
/-
  A scatter-add of rows and a gather of rows, read at an index.

  Both operations address the rows of a table by an integer read off an index array, one integer per update (or per
  result row): the index array has shape [E, 1], entry (e, 0) naming the row that update (or result) row e goes to
  (or comes from). For the scatter the integer is read signed and NOT clamped: update row e lands on table row n
  exactly when the integer IS n, and an update whose integer is outside the table is dropped. For the gather it is
  read signed and clamped into the table.
-/
import Idealize.ShloMosaic.Lib.ValueIdx

namespace Cert.Lib.RowIndex

open Idealize.ShloMosaic Idealize.ShloMosaic.ValueIdx

/-- The dimension numbers of a scatter of E scalars into a vector of N entries: one index per update, naming the
    entry; no window. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index array is read at (e, 0): the update's one coordinate on axis 0, the one component of the index vector
    on axis 1. -/
private theorem vec_siIdx {N E : Nat} (wf : ScatterDims.WF ⟨1, ![N]⟩ ⟨2, ![E, 1]⟩ ⟨1, ![E]⟩ [] [0] [0] 1)
    (j : (⟨1, ![E]⟩ : Shape).Idx) (c : Fin (vecDims N E wf).scatterDimsToOperandDims.length) :
    (vecDims N E wf).siIdx j c = ix2 (j 0) 0 := by
  funext b; refine Fin.ext ?_
  match b with
  | ⟨0, _⟩ => rfl
  | ⟨1, _⟩ =>
    have : c.val < 1 := c.isLt
    show c.val = 0
    omega

/-- On the vector's one axis the start is the integer at (e, 0): the axis is the one the index map names. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  rw [vec_siIdx]
  rfl

/-- There is no window: the vector's one axis is an inserted one, so the window coordinate on it is 0. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  rw [dif_neg]
  obtain rfl : a = 0 := Subsingleton.elim _ _
  show (0 : Fin 1) ∉ (List.finRange 1).filter (fun a => decide (a ∉ [(0 : Fin 1)]))
  decide

/-- Update e of a vector scatter lands on entry i exactly when the integer at (e, 0) is i. -/
theorem vecDims_resultIdx?_eq_some_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  unfold ScatterDims.resultIdx?
  have hi : (i 0).val < N := (i 0).isLt
  constructor
  · -- the landing index exists: read the equality of indices on axis 0
    intro h
    split at h
    · rename_i hb
      have h0 := congrArg Fin.val (congrFun (Option.some.inj h) 0)
      have hb0 := hb 0
      simp only [vec_start, vec_window] at h0 hb0
      omega
    · exact absurd h (by simp)
  · -- the integer is i's coordinate, which is inside the vector
    intro hz
    have hb : ∀ a, 0 ≤ (vecDims N E wf).start j idx a + (vecDims N E wf).window j a ∧
        (vecDims N E wf).start j idx a + (vecDims N E wf).window j a < (⟨1, ![N]⟩ : Shape).size a := by
      intro a
      obtain rfl : a = 0 := Subsingleton.elim _ _
      rw [vec_start, vec_window, hz]
      show (0 : Int) ≤ ((i 0).val : Int) + ((0 : Nat) : Int) ∧ ((i 0).val : Int) + ((0 : Nat) : Int) < (N : Int)
      omega
    rw [dif_pos hb]
    congr 1
    funext a
    obtain rfl : a = 0 := Subsingleton.elim _ _
    refine Fin.ext ?_
    show ((vecDims N E wf).start j idx 0 + (vecDims N E wf).window j 0).toNat = (i 0).val
    rw [vec_start, vec_window, hz]
    omega

/-- The dimension numbers of a scatter of E rows of C entries into a table of N rows: one index per update row,
    naming the table row; the window is the whole row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index array is read at (e, 0): the update row's coordinate on axis 0, the one component of the index vector
    on axis 1. -/
private theorem row_siIdx {N E C : Nat} (wf : ScatterDims.WF ⟨2, ![N, C]⟩ ⟨2, ![E, 1]⟩ ⟨2, ![E, C]⟩ [1] [0] [0] 1)
    (j : (⟨2, ![E, C]⟩ : Shape).Idx) (c : Fin (rowDims N E C wf).scatterDimsToOperandDims.length) :
    (rowDims N E C wf).siIdx j c = ix2 (j 0) 0 := by
  funext b; refine Fin.ext ?_
  match b with
  | ⟨0, _⟩ => rfl
  | ⟨1, _⟩ =>
    have : c.val < 1 := c.isLt
    show c.val = 0
    omega

/-- On the table's row axis the start is the integer at (e, 0): the index map names that axis. -/
private theorem row_start0 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  rw [row_siIdx]
  rfl

/-- On the column axis the start is 0: the index map does not name it. -/
private theorem row_start1 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg]
  show (1 : Fin 2) ∉ [(0 : Fin 2)]
  decide

/-- The row axis is an inserted one: the window coordinate on it is 0. -/
private theorem row_window0 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 0 = 0 := by
  unfold ScatterDims.window
  rw [dif_neg]
  show (0 : Fin 2) ∉ (List.finRange 2).filter (fun a => decide (a ∉ [(0 : Fin 2)]))
  decide

/-- The column axis is the one kept axis, and the updates' one window axis goes to it: the window coordinate is the
    update's column. -/
private theorem row_window1 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 1 = (j 1).val := by
  unfold ScatterDims.window
  have h1 : (1 : Fin 2) ∈ (rowDims N E C wf).sKept := by
    show (1 : Fin 2) ∈ (List.finRange 2).filter (fun a => decide (a ∉ [(0 : Fin 2)]))
    decide
  rw [dif_pos h1]
  rfl

/-- Entry (e, f) of the updates of a row scatter lands on table entry (n, f') exactly when the integer at (e, 0) is n
    and f = f'. -/
theorem rowDims_resultIdx?_eq_some_iff {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  unfold ScatterDims.resultIdx?
  have hi0 : (i 0).val < N := idx2_lt0 i
  have hi1 : (i 1).val < C := idx2_lt1 i
  have hj1 : (j 1).val < C := idx2_lt1 j
  constructor
  · -- the landing index exists: read the equality of indices on each axis
    intro h
    split at h
    · rename_i hb
      have h0 := congrArg Fin.val (congrFun (Option.some.inj h) 0)
      have h1 := congrArg Fin.val (congrFun (Option.some.inj h) 1)
      have hb0 := hb 0
      simp only [row_start0, row_start1, row_window0, row_window1] at h0 h1 hb0
      omega
    · exact absurd h (by simp)
  · -- the integer is i's row, inside the table; the column is the update's own, inside the row
    rintro ⟨hz, hc⟩
    have hb : ∀ a, 0 ≤ (rowDims N E C wf).start j idx a + (rowDims N E C wf).window j a ∧
        (rowDims N E C wf).start j idx a + (rowDims N E C wf).window j a < (⟨2, ![N, C]⟩ : Shape).size a := by
      rw [Fin.forall_fin_two]
      refine ⟨?_, ?_⟩
      · rw [row_start0, row_window0, hz]
        show (0 : Int) ≤ ((i 0).val : Int) + ((0 : Nat) : Int) ∧ ((i 0).val : Int) + ((0 : Nat) : Int) < (N : Int)
        omega
      · rw [row_start1, row_window1]
        show (0 : Int) ≤ 0 + ((j 1).val : Int) ∧ (0 : Int) + ((j 1).val : Int) < (C : Int)
        omega
    rw [dif_pos hb]
    congr 1
    funext a
    refine Fin.ext ?_
    match a with
    | ⟨0, _⟩ =>
      show ((rowDims N E C wf).start j idx 0 + (rowDims N E C wf).window j 0).toNat = (i 0).val
      rw [row_start0, row_window0, hz]
      omega
    | ⟨1, _⟩ =>
      show ((rowDims N E C wf).start j idx 1 + (rowDims N E C wf).window j 1).toNat = (i 1).val
      rw [row_start1, row_window1]
      omega

/-- The dimension numbers of a gather of E rows out of a table of N rows of C entries: one index per result row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The index array is read at (e, 0): the result row's coordinate on axis 0 (the result's one batch axis), the one
    component of the index vector on axis 1. -/
private theorem rowGather_siIdx {N E C : Nat}
    (wf : GatherDims.WF ⟨2, ![N, C]⟩ ⟨2, ![E, 1]⟩ ⟨2, ![E, C]⟩ [1] [0] [] [0] [] 1 ![1, C])
    (e : Fin E) (f : Fin C) (c : Fin (rowGatherDims N E C wf).startIndexMap.length) :
    (rowGatherDims N E C wf).siIdx (ix2 e f) c = ix2 e 0 := by
  funext b; refine Fin.ext ?_
  match b with
  | ⟨0, _⟩ => rfl
  | ⟨1, _⟩ =>
    have : c.val < 1 := c.isLt
    show c.val = 0
    omega

/-- The row gather read at (e, f): the table at the row the integer at (e, 0) names, read signed and clamped into
    [0, N - 1], same column. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f)
      = x (ix2 ⟨min (idx (ix2 e 0)).toInt.toNat (N - 1), by omega⟩ f) := by
  unfold Host.gather
  congr 1
  funext a
  refine Fin.ext ?_
  match a with
  | ⟨0, _⟩ =>
    -- the row axis: collapsed (no offset), not batching, named by the start index map, slice size 1: the clamped integer
    show (rowGatherDims N E C wf).start (ix2 e f) idx 0 + (rowGatherDims N E C wf).batchCoord (ix2 e f) 0
        + (rowGatherDims N E C wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [rowGather_siIdx]
    rfl
  | ⟨1, _⟩ =>
    -- the column axis: not named by the start index map (start 0), not batching, the one offset axis: the result's column
    show (rowGatherDims N E C wf).start (ix2 e f) idx 1 + (rowGatherDims N E C wf).batchCoord (ix2 e f) 1
        + (rowGatherDims N E C wf).offCoord (ix2 e f) 1 = f.val
    have hs : (rowGatherDims N E C wf).start (ix2 e f) idx 1 = 0 := by
      unfold GatherDims.start
      rw [dif_neg]
      show (1 : Fin 2) ∉ [(0 : Fin 2)]
      decide
    have ho : (rowGatherDims N E C wf).offCoord (ix2 e f) 1 = f.val := by
      have h1 : (1 : Fin 2) ∈ (rowGatherDims N E C wf).sKept := by
        show (1 : Fin 2) ∈ (List.finRange 2).filter (fun a => decide (a ∉ [(0 : Fin 2)] ++ ([] : List (Fin 2))))
        decide
      unfold GatherDims.offCoord
      rw [dif_pos h1]
      rfl
    rw [hs, GatherDims.batchCoord_eq_zero _ _ _ List.not_mem_nil, ho]
    omega

end Cert.Lib.RowIndex
-- ==== Proof.LibScatterSum.lean ====
/-
  The accumulating scatter at the ideal instance, read at an index as a sum over the update rows.

  At the ideal instance a scatter-add leaves, at each entry of its operand, the entry plus the exact sum of the updates
  that land there. With one integer per update row naming the row it goes to, entry n of a vector receives the
  updates e whose integer is n; entry (n, f) of a table receives, from each update row e whose integer is n, its
  entry (e, f). Updates whose integer names no row contribute nothing.
-/
import proofs.«100394_j63350767616428_1_alg».proof.Proof.LibRowIndex
import Idealize.ShloMosaic.PureOps.Ideal
import Idealize.ShloMosaic.PureOps.Contract

noncomputable section

namespace Cert.Lib.RowIndex

open Idealize.ShloMosaic Idealize.ShloMosaic.ValueIdx

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry n of a vector after a scatter-add of E scalars: the entry, plus the updates whose integer is n. -/
theorem scatterVec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) (vecDims N E wf) x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  simp only [vecDims_resultIdx?_eq_some_iff]
  rw [Finset.sum_filter, sum_idx1]
  rfl

/-- Entry (n, f) of a table after a scatter-add of E rows: the entry, plus entry f of each update row whose integer
    is n. -/
theorem scatterRow_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Host.scatterAdd (F := Ideal) (φ := .f32) (rowDims N E C wf) x idx upd (ix2 n f)
      = x (ix2 n f) + ∑ e : Fin E, if (idx (ix2 e 0)).toInt = (n.val : Int) then upd (ix2 e f) else 0 := by
  unfold Host.scatterAdd
  rw [Ideal.hostScatterAdd_def]
  unfold Ideal.hostScatterAdd
  simp only [rowDims_resultIdx?_eq_some_iff]
  rw [Finset.sum_filter, sum_idx2]
  congr 1
  refine Finset.sum_congr rfl fun e _ => ?_
  show (∑ b : Fin C, if (idx (ix2 e 0)).toInt = (n.val : Int) ∧ b.val = f.val then upd (ix2 e b) else 0) = _
  by_cases h : (idx (ix2 e 0)).toInt = (n.val : Int)
  · rw [if_pos h, Finset.sum_eq_single f]
    · rw [if_pos ⟨h, rfl⟩]
    · intro b _ hb
      rw [if_neg (fun hv => hb (Fin.ext hv.2))]
    · intro hf; exact absurd (Finset.mem_univ f) hf
  · rw [if_neg h]
    exact Finset.sum_eq_zero fun b _ => if_neg (fun hv => h hv.1)

end Cert.Lib.RowIndex

end
-- ==== Proof.KerTail.lean ====
/-
  The lines after the kernel's region compute the segment mean of the region's result.

  They put a column of ones beside the table of rows, add the widened rows into a table of zeros at the rows the
  nodes' segments name, and split the table again: its first three columns are the segments' sums, its fourth the
  segments' counts. The quotient of the sums by the larger of the count and one, with a leading unit axis, is the
  result. The segment of node e is the second component of its edge.
-/
import proofs.«100394_j63350767616428_1_alg».proof.Proof.Gen.KernelIdeal
import proofs.«100394_j63350767616428_1_alg».proof.Proof.Spec
import proofs.«100394_j63350767616428_1_alg».proof.Proof.LibScatterSum
import Idealize.ShloMosaic.Lib.Pipeline.Value

noncomputable section

namespace Cert.KernelIdeal.KerValue

open Cert.KernelIdeal Cert.KernelIdeal.Gen Idealize.ShloMosaic Idealize.ShloMosaic.TcCoe
open Idealize.ShloMosaic.ValueIdx Cert.SegMean Cert.Lib.RowIndex

/-- The index array of the scatter: the edges' second components, one per node. -/
def tailIdx (edges : S1x16777216x2.Idx → BitVec 32) : IVec S16777216x1 32 :=
  broadcastInDim S16777216x1 ![0] bcast_S16777216_S16777216x1_0
    (shapeCast S16777216
      (extractStridedSlice S1x16777216x1 ![0, 0, 1] edges slices_S1x16777216x2_S1x16777216x1_0_0_1)
      shapeCasts_S1x16777216x1_S16777216)

/-- The rows widened by a column of ones. -/
def tailData (H : S1x16777216x3.Idx → EReal) : S16777216x4.Idx → EReal :=
  concatenate S16777216x4 1
    [⟨S16777216x3, shapeCast S16777216x3 H shapeCasts_S1x16777216x3_S16777216x3⟩,
     ⟨S16777216x1, broadcastInDim S16777216x1 ![] bcast_S_S16777216x1 (constant (F := Ideal) S_ .f32 0x3F800000#32)⟩]
    concatenates_S16777216x3_S16777216x1_S16777216x4_d1

/-- The widened rows added up by segment, on top of zeros. -/
def tailAgg (H : S1x16777216x3.Idx → EReal) (edges : S1x16777216x2.Idx → BitVec 32) : S1048576x4.Idx → EReal :=
  Host.scatterAdd (F := Ideal) (φ := .f32) scatter_S1048576x4_S16777216x1_S16777216x4_1_0_0_1
    (broadcastInDim S1048576x4 ![] bcast_S_S1048576x4 (constant (F := Ideal) S_ .f32 0x00000000#32))
    (tailIdx edges) (tailData H)

/-- The lines after the region, as one function of the region's result and the edges. -/
def tail (H : S1x16777216x3.Idx → EReal) (edges : S1x16777216x2.Idx → BitVec 32) : S1x1048576x3.Idx → EReal :=
  broadcastInDim S1x1048576x3 ![1, 2] bcast_S1048576x3_S1x1048576x3_1_2
    (Host.divf (F := Ideal) (φ := .f32)
      (extractStridedSlice S1048576x3 ![0, 0] (tailAgg H edges) slices_S1048576x4_S1048576x3_0_0)
      (broadcastInDim S1048576x3 ![0, 1] bcast_S1048576x1_S1048576x3_0_1
        (broadcastInDim S1048576x1 ![0] bcast_S1048576_S1048576x1_0
          (maximumf (F := Ideal) (φ := .f32)
            (shapeCast S1048576
              (extractStridedSlice S1048576x1 ![0, 3] (tailAgg H edges) slices_S1048576x4_S1048576x1_0_3)
              shapeCasts_S1048576x1_S1048576)
            (broadcastInDim S1048576 ![] bcast_S_S1048576 (constant (F := Ideal) S_ .f32 0x3F800000#32))))))

/-- The index array names, for node e, the node's segment. -/
theorem tailIdx_apply (edges : S1x16777216x2.Idx → BitVec 32) (e : Fin 16777216) :
    (tailIdx edges (ix2 e 0)).toInt = seg edges e := by
  unfold seg tailIdx
  congr 1
  refine (broadcastInDim_apply _ bcast_S16777216_S16777216x1_0 _ (ix2 e 0) (ix1 e) (fun a => match a with
    | ⟨0, _⟩ => by show e.val = if (16777216 : Nat) = 1 then 0 else e.val; rw [if_neg (by decide)])).trans ?_
  refine (shapeCast_apply _ shapeCasts_S1x16777216x1_S16777216 (ix1 e) (ix3 0 e 0)
    (by rewrite [Shape.rowMajor_val_three, Shape.rowMajor_val_one]; show (0 * 16777216 + e.val) * 1 + 0 = e.val; omega)).trans ?_
  exact extractStridedSlice_apply ![0, 0, 1] edges slices_S1x16777216x2_S1x16777216x1_0_0_1 (ix3 0 e 0) (ix3 0 e 1) (fun a => match a with
    | ⟨0, _⟩ => by show 0 = 0 + 0; omega
    | ⟨1, _⟩ => by show e.val = 0 + e.val; omega
    | ⟨2, _⟩ => by show 1 = 1 + 0; omega)

/-- The first three columns of the widened rows are the rows. -/
theorem tailData_left (H : S1x16777216x3.Idx → EReal) (e : Fin 16777216) (j : Fin 3) (f : Fin 4) (hf : f.val = j.val) :
    tailData H (ix2 e f) = H (ix3 0 e j) := by
  unfold tailData
  refine (concatenate_pair_apply_left (1 : Fin S16777216x4.rank) _ _ concatenates_S16777216x3_S16777216x1_S16777216x4_d1
    (ix2 e f) rfl (ix2 e j) (fun b => match b with
      | ⟨0, _⟩ => rfl
      | ⟨1, _⟩ => hf.symm)).trans ?_
  exact shapeCast_apply H shapeCasts_S1x16777216x3_S16777216x3 (ix2 e j) (ix3 0 e j)
    (by rewrite [Shape.rowMajor_val_three, Shape.rowMajor_val_two]; show (0 * 16777216 + e.val) * 3 + j.val = e.val * 3 + j.val; omega)

/-- The fourth column is ones. -/
theorem tailData_right (H : S1x16777216x3.Idx → EReal) (e : Fin 16777216) :
    tailData H (ix2 e 3) = Ideal.ofBits .f32 0x3F800000#32 := by
  unfold tailData
  refine (concatenate_pair_apply_right (1 : Fin S16777216x4.rank) _ _ concatenates_S16777216x3_S16777216x1_S16777216x4_d1
    (ix2 e 3) rfl rfl (ix2 e 0) (fun b => match b with
      | ⟨0, _⟩ => fun _ => rfl
      | ⟨1, _⟩ => fun hne => absurd rfl hne) rfl).trans ?_
  exact (broadcastInDim_apply _ bcast_S_S16777216x1 _ (ix2 e 0) ix0 (fun a => a.elim0)).trans rfl

/-- Entry (s, f) of the table after the scatter: the zero word plus column f of the widened rows of the nodes of
    segment s. -/
theorem tailAgg_apply (H : S1x16777216x3.Idx → EReal) (edges : S1x16777216x2.Idx → BitVec 32) (s : Fin 1048576) (f : Fin 4) :
    tailAgg H edges (ix2 s f)
      = Ideal.ofBits .f32 0x00000000#32 + ∑ e : Fin 16777216, if seg edges e = (s.val : Int) then tailData H (ix2 e f) else 0 := by
  unfold tailAgg
  refine (scatterRow_apply (N := 1048576) (E := 16777216) (C := 4) (w := 32) scatter_S1048576x4_S16777216x1_S16777216x4_1_0_0_1_wf
    (broadcastInDim S1048576x4 ![] bcast_S_S1048576x4 (constant (F := Ideal) S_ .f32 0x00000000#32))
    (tailIdx edges) (tailData H) s f).trans ?_
  refine congrArg₂ (· + ·) ((broadcastInDim_apply _ bcast_S_S1048576x4 _ (ix2 s f) ix0 (fun a => a.elim0)).trans rfl)
    (Finset.sum_congr rfl fun e _ => ?_)
  rw [tailIdx_apply]

/-- The host's quotient of two tables, entry by entry. -/
theorem hostDivf_apply {s : Shape} (a b : FVec Ideal s .f32) (i : s.Idx) :
    Host.divf (F := Ideal) (φ := .f32) a b i = Ideal.div (a i) (b i) := rfl

/-- The lines after the region compute the segment mean of the region's result. -/
theorem tail_eq (H : S1x16777216x3.Idx → EReal) (edges : S1x16777216x2.Idx → BitVec 32) :
    tail H edges = mean (seg edges) (fun i => H (ix3 0 (i 0) (i 1))) := by
  funext i
  obtain ⟨z, s, j, rfl⟩ : ∃ (z : Fin 1) (s : Fin 1048576) (j : Fin 3), i = ix3 z s j := ⟨i 0, i 1, i 2, eq_ix3 i⟩
  unfold tail mean
  refine (broadcastInDim_apply _ bcast_S1048576x3_S1x1048576x3_1_2 _ (ix3 z s j) (ix2 s j) (fun a => match a with
    | ⟨0, _⟩ => by show s.val = if (1048576 : Nat) = 1 then 0 else s.val; rw [if_neg (by decide)]
    | ⟨1, _⟩ => by show j.val = if (3 : Nat) = 1 then 0 else j.val; rw [if_neg (by decide)])).trans ?_
  refine (hostDivf_apply _ _ (ix2 s j)).trans ?_
  show _ = Ideal.div (segSum (seg edges) (fun i => H (ix3 0 (i 0) (i 1))) s j)
    (max (segCount (seg edges) s) (Ideal.ofBits .f32 0x3F800000#32))
  refine congrArg₂ Ideal.div ?_ ?_
  · -- the sums: the first three columns of the table
    refine (extractStridedSlice_apply ![0, 0] (tailAgg H edges) slices_S1048576x4_S1048576x3_0_0 (ix2 s j) (ix2 s ⟨j.val, by have := j.isLt; omega⟩) (fun a => match a with
      | ⟨0, _⟩ => by show s.val = 0 + s.val; omega
      | ⟨1, _⟩ => by show j.val = 0 + j.val; omega)).trans ?_
    refine (tailAgg_apply H edges s _).trans ?_
    unfold segSum
    refine congrArg₂ (· + ·) rfl (Finset.sum_congr rfl fun e _ => ?_)
    rw [tailData_left H e j ⟨j.val, by have := j.isLt; omega⟩ rfl]
  · -- the count: the fourth column
    refine (broadcastInDim_apply _ bcast_S1048576x1_S1048576x3_0_1 _ (ix2 s j) (ix2 s 0) (fun a => match a with
      | ⟨0, _⟩ => by show s.val = if (1048576 : Nat) = 1 then 0 else s.val; rw [if_neg (by decide)]
      | ⟨1, _⟩ => by show 0 = if (1 : Nat) = 1 then 0 else j.val; rw [if_pos rfl])).trans ?_
    refine (broadcastInDim_apply _ bcast_S1048576_S1048576x1_0 _ (ix2 s 0) (ix1 s) (fun a => match a with
      | ⟨0, _⟩ => by show s.val = if (1048576 : Nat) = 1 then 0 else s.val; rw [if_neg (by decide)])).trans ?_
    refine (maximumf_apply _ _ (ix1 s)).trans ?_
    refine congrArg₂ max ?_ ((broadcastInDim_apply _ bcast_S_S1048576 _ (ix1 s) ix0 (fun a => a.elim0)).trans rfl)
    refine (shapeCast_apply _ shapeCasts_S1048576x1_S1048576 (ix1 s) (ix2 s 0)
      (by rewrite [Shape.rowMajor_val_two, Shape.rowMajor_val_one]; show s.val * 1 + 0 = s.val; omega)).trans ?_
    refine (extractStridedSlice_apply ![0, 3] (tailAgg H edges) slices_S1048576x4_S1048576x1_0_3 (ix2 s 0) (ix2 s 3) (fun a => match a with
      | ⟨0, _⟩ => by show s.val = 0 + s.val; omega
      | ⟨1, _⟩ => by show 3 = 3 + 0; omega)).trans ?_
    refine (tailAgg_apply H edges s 3).trans ?_
    unfold segCount
    refine congrArg₂ (· + ·) rfl (Finset.sum_congr rfl fun e _ => ?_)
    rw [tailData_right]

end Cert.KernelIdeal.KerValue

end
-- ==== Proof.KerRun.lean ====
/-
  The kernel's run: its result is the segment mean of the three-layer table of its arguments.

  The result buffer holds what the lines after the region compute from the region's result array and the edges;
  the region's result array is the table of final rows; so the result is the specification's mean. The arguments
  end as they began.
-/
import proofs.«100394_j63350767616428_1_alg».proof.Proof.KerArray
import proofs.«100394_j63350767616428_1_alg».proof.Proof.KerTail

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.SegMean
open Idealize.ShloMosaic.Pipeline (Dat Cfg Window)

variable (m : (ℓ : Loc nD τ sig) → Buf (Elt Ideal) ℓ)

/-- The result buffer after the lines that follow the region: those lines applied to the table of final rows and the
    edges. -/
theorem tail_run (c : Dev nD) :
    (Pipeline.afterTail₀ cfgs (dats m) 0 (V0 m) [hostOps1] c main_v20 : S1x1048576x3.Idx → Elt Ideal .f32)
      = tail (rows m c) (m ((c : Thread nD τ).loc main_arg0)) := by
  unfold Pipeline.afterTail₀
  show StableHlo.after hostOps1 _ (Proc.devRef .tc main_v20) = _
  after_results
  have hA : Pipeline.withArrays (cfgs 0).spec c (V0 m c) (fun w => (dats m 0 c).arrAt w (cfgs 0).N) (Proc.devRef .tc main_v3)
      = rows m c :=
    (Pipeline.withArrays_arr spec0 launch0.win.arr_inj c _ _ 7).trans (final m c)
  have hE : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by decide)).trans (V_main_arg0 m c)
  rw [hA, hE]
  rfl

/-- Read back row by row, the region's result array is the table of final rows. -/
theorem rows_feat (c : Dev nD) :
    (fun i : S16777216x3.Idx => rows m c (ix3 0 (i 0) (i 1)))
      = feat (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  funext i
  show feat _ _ _ _ _ _ _ (ix2 (i 0) (i 1)) = feat _ _ _ _ _ _ _ i
  exact congrArg (feat _ _ _ _ _ _ _) (eq_ix2 i).symm

/-- The kernel's run: every weakly fair execution ends with the result at the segment mean of the three-layer table of
    the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v20)
        = mean (seg (m ((c.tc : Thread nD τ).loc main_arg0)))
            (feat (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(((h c).2 main_v20 (Pipeline.mem_restRefs_of main_v20 (by decide) (by decide))).trans (tail_run m c)).trans
        ((tail_eq _ _).trans (congrArg (mean _) (rows_feat m c))),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c))⟩)
    (run_main m ρ)

end Cert.KernelIdeal.KerValue

end
-- ==== Proof.RefFeat.lean ====
/-
  The reference, stage by stage, is the segment mean of the three-layer table.

  Each of its three layers is a product of the table of rows with the transposed weight table, plus the bias spread
  over the rows: entry (e, j) is the dot product of row e with row j of the weights, plus entry j of the bias. Its two
  accumulating scatters are sums over the nodes that name the segment: one of the rows, one of ones.
-/
import proofs.«100394_j63350767616428_1_alg».proof.Proof.Gen.ReferenceIdeal.Read
import proofs.«100394_j63350767616428_1_alg».proof.Proof.Spec
import proofs.«100394_j63350767616428_1_alg».proof.Proof.LibScatterSum

noncomputable section

namespace Cert.ReferenceIdeal.RefValue

open Cert.ReferenceIdeal Cert.ReferenceIdeal.Gen Idealize.ShloMosaic Idealize.ShloMosaic.TcCoe
open Idealize.ShloMosaic.ValueIdx Cert.SegMean Cert.Lib.RowIndex

/-- The host's product of a table of rows with a 3 × 3 table, at entry i: the sum over k of the row's entry k times
    the table's entry (k, column of i). -/
theorem dot_apply (y : S16777216x3.Idx → EReal) (w : S3x3.Idx → EReal) (i : S16777216x3.Idx) :
    Host.dotGeneral (F := Ideal) (φ₁ := .f32) (φ₂ := .f32) dot_S16777216x3_S3x3_S16777216x3_1_0_0_1_n_n none y w i
      = ∑ k : Fin 3, y (Read.lidx_main_v2 i k) * w (Read.ridx_main_v2 i k) := by
  simp only [Host.dotGeneral]
  rw [Ideal.dotGeneral_apply, ← Equiv.sum_comp (ValueIdx.contrEquiv1 dot_S16777216x3_S3x3_S16777216x3_1_0_0_1_n_n 3 rfl rfl).symm]
  refine Finset.sum_congr rfl fun k _ => ?_
  have hk := ValueIdx.contrEquiv1_symm_val dot_S16777216x3_S3x3_S16777216x3_1_0_0_1_n_n 3 rfl rfl k
  have el : dot_S16777216x3_S3x3_S16777216x3_1_0_0_1_n_n.lhsIdx i ((ValueIdx.contrEquiv1 dot_S16777216x3_S3x3_S16777216x3_1_0_0_1_n_n 3 rfl rfl).symm k) = Read.lidx_main_v2 i k := funext fun a => Fin.ext (by
    match a with
    | ⟨0, _⟩ => exact Read.lhs_main_v2_0 _ _
    | ⟨1, _⟩ => exact (Read.lhs_main_v2_1 _ _).trans hk)
  have er : dot_S16777216x3_S3x3_S16777216x3_1_0_0_1_n_n.rhsIdx i ((ValueIdx.contrEquiv1 dot_S16777216x3_S3x3_S16777216x3_1_0_0_1_n_n 3 rfl rfl).symm k) = Read.ridx_main_v2 i k := funext fun a => Fin.ext (by
    match a with
    | ⟨0, _⟩ => exact (Read.rhs_main_v2_0 _ _).trans hk
    | ⟨1, _⟩ => exact Read.rhs_main_v2_1 _ _)
  rw [el, er]

/-- One layer as the reference writes it: the product with the transposed weights plus the bias spread over the
    rows. -/
def layer (y : S16777216x3.Idx → EReal) (W : S3x3.Idx → EReal) (b : S3.Idx → EReal) : S16777216x3.Idx → EReal :=
  addf (F := Ideal) (φ := .f32)
    (Host.dotGeneral (F := Ideal) (φ₁ := .f32) (φ₂ := .f32) dot_S16777216x3_S3x3_S16777216x3_1_0_0_1_n_n none y
      (transpose S3x3 [1, 0] W transposes_S3x3_S3x3_1_0))
    (broadcastInDim S16777216x3 ![0, 1] bcast_S1x3_S16777216x3_0_1 (broadcastInDim S1x3 ![1] bcast_S3_S1x3_1 b))

/-- Entry (e, j) of a layer is the affine layer of the specification applied to row e. -/
theorem layer_apply (y : S16777216x3.Idx → EReal) (W : S3x3.Idx → EReal) (b : S3.Idx → EReal)
    (e : Fin 16777216) (j : Fin 3) :
    layer y W b (ix2 e j) = lin W (fun j => b (ix1 j)) (fun k => y (ix2 e k)) j := by
  unfold layer lin
  rw [addf_apply, dot_apply]
  congr 1
  · refine Finset.sum_congr rfl fun k _ => ?_
    have e1 : Read.lidx_main_v2 (ix2 e j) k = ix2 e k :=
      funext fun a => Fin.ext (by match a with | ⟨0, _⟩ => rfl | ⟨1, _⟩ => rfl)
    rw [e1]
    congr 1
    exact transpose_apply [1, 0] W transposes_S3x3_S3x3_1_0 (Read.ridx_main_v2 (ix2 e j) k) (ix2 j k) (fun b => match b with
      | ⟨0, _⟩ => rfl
      | ⟨1, _⟩ => rfl)
  · refine (broadcastInDim_apply _ bcast_S1x3_S16777216x3_0_1 _ (ix2 e j) (ix2 (0 : Fin 1) j) (fun a => match a with
      | ⟨0, _⟩ => by show 0 = if (1 : Nat) = 1 then 0 else e.val; rw [if_pos rfl]
      | ⟨1, _⟩ => by show j.val = if (3 : Nat) = 1 then 0 else j.val; rw [if_neg (by decide)])).trans ?_
    exact broadcastInDim_apply _ bcast_S3_S1x3_1 b (ix2 (0 : Fin 1) j) (ix1 j) (fun a => match a with
      | ⟨0, _⟩ => by show j.val = if (3 : Nat) = 1 then 0 else j.val; rw [if_neg (by decide)])

/-- The reference's table after its third layer is the specification's table of final rows. -/
theorem feat_eq (x1 : S1x16777216x3.Idx → EReal) (x2 : S3x3.Idx → EReal) (x3 : S3.Idx → EReal)
    (x4 : S3x3.Idx → EReal) (x5 : S3.Idx → EReal) (x6 : S3x3.Idx → EReal) (x7 : S3.Idx → EReal) :
    Read.val_main_v15 (F := Ideal) x1 x2 x3 x4 x5 x6 x7 = feat x1 x2 x3 x4 x5 x6 x7 := by
  funext i
  obtain ⟨e, j, rfl⟩ : ∃ (e : Fin 16777216) (j : Fin 3), i = ix2 e j := ⟨i 0, i 1, eq_ix2 i⟩
  show layer (layer (layer (shapeCast S16777216x3 x1 shapeCasts_S1x16777216x3_S16777216x3) x2 x3) x4 x5) x6 x7 (ix2 e j) = _
  unfold feat chain
  rw [layer_apply]
  refine congrFun (congrArg (lin _ _) (funext fun k => ?_)) _
  rw [layer_apply]
  refine congrFun (congrArg (lin _ _) (funext fun k' => ?_)) _
  rw [layer_apply]
  refine congrFun (congrArg (lin _ _) (funext fun k'' => ?_)) _
  exact shapeCast_apply x1 shapeCasts_S1x16777216x3_S16777216x3 (ix2 e k'') (ix3 0 e k'')
    (by rewrite [Shape.rowMajor_val_three, Shape.rowMajor_val_two]; show (0 * 16777216 + e.val) * 3 + k''.val = e.val * 3 + k''.val; omega)

/-- The index array the scatters read names, for node e, the node's segment. -/
theorem idx_apply (x0 : S1x16777216x2.Idx → BitVec 32) (e : Fin 16777216) :
    (Read.val_main_v20 (F := Ideal) x0 (ix2 e 0)).toInt = seg x0 e := by
  unfold seg
  congr 1
  rw [Read.val_main_v20_apply, Read.val_main_v18_apply, Read.val_main_v17_apply, Read.val_main_v16_apply]
  congr 1
  funext a
  refine Fin.ext ?_
  match a with
  | ⟨0, _⟩ => rfl
  | ⟨1, _⟩ => show (e.val / 1 * 2 + (1 + 0)) / 2 % 16777216 = e.val; have := e.isLt; omega
  | ⟨2, _⟩ => show (e.val / 1 * 2 + (1 + 0)) % 2 = 1; omega

end Cert.ReferenceIdeal.RefValue

end
-- ==== Proof.RefMean.lean ====
/-
  The reference's result is the segment mean of the three-layer table.

  Its row scatter leaves at entry (s, j) the zero word plus the sum of entry j of the rows of the nodes of segment s;
  its scatter of ones leaves at entry s the zero word plus one per node of segment s; the quotient of the first by the
  larger of the second and one, with a leading unit axis put in front, is the result.
-/
import proofs.«100394_j63350767616428_1_alg».proof.Proof.RefFeat

noncomputable section

namespace Cert.ReferenceIdeal.RefValue

open Cert.ReferenceIdeal Cert.ReferenceIdeal.Gen Idealize.ShloMosaic Idealize.ShloMosaic.TcCoe
open Idealize.ShloMosaic.ValueIdx Cert.SegMean Cert.Lib.RowIndex

/-- Entry (s, j) of the row scatter: the segment's sum of column j. -/
theorem sums_apply (x0 : S1x16777216x2.Idx → BitVec 32) (x1 : S1x16777216x3.Idx → EReal) (x2 : S3x3.Idx → EReal)
    (x3 : S3.Idx → EReal) (x4 : S3x3.Idx → EReal) (x5 : S3.Idx → EReal) (x6 : S3x3.Idx → EReal) (x7 : S3.Idx → EReal)
    (s : Fin 1048576) (j : Fin 3) :
    Read.val_main_v21 (F := Ideal) x0 x1 x2 x3 x4 x5 x6 x7 (ix2 s j)
      = segSum (seg x0) (feat x1 x2 x3 x4 x5 x6 x7) s j := by
  unfold Read.val_main_v21 segSum
  refine (scatterRow_apply (N := 1048576) (E := 16777216) (C := 3) (w := 32) scatter_S1048576x3_S16777216x1_S16777216x3_1_0_0_1_wf
    (Read.val_main_v19 (F := Ideal)) (Read.val_main_v20 (F := Ideal) x0) (Read.val_main_v15 (F := Ideal) x1 x2 x3 x4 x5 x6 x7) s j).trans ?_
  refine congrArg₂ (· + ·) ((Read.val_main_v19_apply _).trans (Read.val_main_cst_apply _)) (Finset.sum_congr rfl fun e _ => ?_)
  rw [idx_apply, feat_eq]

/-- Entry s of the scatter of ones: the segment's count. -/
theorem count_apply (x0 : S1x16777216x2.Idx → BitVec 32) (s : Fin 1048576) :
    Read.val_main_v25 (F := Ideal) x0 (ix1 s) = segCount (seg x0) s := by
  unfold Read.val_main_v25 segCount
  refine (scatterVec_apply (N := 1048576) (E := 16777216) (w := 32) scatter_S1048576_S16777216x1_S16777216_n_0_0_1_wf
    (Read.val_main_v23 (F := Ideal)) (Read.val_main_v24 (F := Ideal) x0) (Read.val_main_v22 (F := Ideal)) s).trans ?_
  refine congrArg₂ (· + ·) ((Read.val_main_v23_apply _).trans (Read.val_main_cst_1_apply _)) (Finset.sum_congr rfl fun e _ => ?_)
  rw [show (Read.val_main_v24 (F := Ideal) x0 (ix2 e 0)).toInt = seg x0 e from idx_apply x0 e,
    Read.val_main_v22_apply, Read.val_main_cst_0_apply]
  rfl

/-- The reference's result is the segment mean. -/
theorem result_eq (x0 : S1x16777216x2.Idx → BitVec 32) (x1 : S1x16777216x3.Idx → EReal) (x2 : S3x3.Idx → EReal)
    (x3 : S3.Idx → EReal) (x4 : S3x3.Idx → EReal) (x5 : S3.Idx → EReal) (x6 : S3x3.Idx → EReal) (x7 : S3.Idx → EReal) :
    Read.val_main_v31 (F := Ideal) x0 x1 x2 x3 x4 x5 x6 x7 = mean (seg x0) (feat x1 x2 x3 x4 x5 x6 x7) := by
  funext i
  obtain ⟨z, s, j, rfl⟩ : ∃ (z : Fin 1) (s : Fin 1048576) (j : Fin 3), i = ix3 z s j := ⟨i 0, i 1, i 2, eq_ix3 i⟩
  have e1 : Read.idx_main_v31 (ix3 z s j) = ix2 s j :=
    funext fun a => Fin.ext (by match a with | ⟨0, _⟩ => rfl | ⟨1, _⟩ => rfl)
  have e2 : Read.idx_main_v28 (Read.idx_main_v29 (ix2 s j)) = ix1 s :=
    funext fun a => Fin.ext (by match a with | ⟨0, _⟩ => rfl)
  rw [Read.val_main_v31_apply, Read.val_main_v30_apply, Read.val_main_v29_apply, Read.val_main_v28_apply,
    Read.val_main_v27_apply, Read.val_main_v26_apply, Read.val_main_cst_2_apply, e1, e2, sums_apply, count_apply]
  rfl

end Cert.ReferenceIdeal.RefValue

end
-- ==== Proof.lean ====
/-
  The kernel streams 16,777,216 rows of three coordinates through three 3 × 3 affine layers, 8192 rows per grid
  point, and the lines after it average the resulting rows over 1,048,576 segments: each node names a segment by the
  second component of its edge, the rows widened by a column of ones are added into a table of zeros at the named
  rows, and the first three columns of the table are divided by the larger of the fourth and one. The reference
  computes the three layers as whole matrix products, adds the rows and a vector of ones into two separate tables,
  and divides in the same way.

  On the extended reals both are the same function of the arguments: entry (0, s, j) of the result is the sum, over
  the nodes of segment s, of entry j of the node's row after the three layers, divided by the larger of the number of
  those nodes and one (Proof/Spec.lean). A block's matrix product into zeros and the whole matrix product are the same
  finite sums; the fourth column of the widened table is the reference's table of counts; and a scatter-add is, at each
  entry, the entry plus the sum of the updates that land there, in any order, since addition of extended reals is
  commutative and associative. No hypothesis on the inputs is used.

  The three frames are the generated ones (the reference's is its generated run with the result dropped); the
  idealization rewrote nothing, so its claim is trivial; the value claim puts the kernel's run (Proof/KerRun.lean)
  beside the reference's generated run read as the specification (Proof/RefMean.lean).
-/
import proofs.«100394_j63350767616428_1_alg».proof.Defs
import proofs.«100394_j63350767616428_1_alg».proof.Proof.Gen.Kernel
import proofs.«100394_j63350767616428_1_alg».proof.Proof.Gen.Kernel.Skeleton
import proofs.«100394_j63350767616428_1_alg».proof.Proof.Gen.Kernel.Launch
import proofs.«100394_j63350767616428_1_alg».proof.Proof.Gen.Kernel.Points
import proofs.«100394_j63350767616428_1_alg».proof.Proof.Gen.Kernel.Frame
import proofs.«100394_j63350767616428_1_alg».proof.Proof.Gen.KernelIdeal
import proofs.«100394_j63350767616428_1_alg».proof.Proof.Gen.KernelIdeal.Skeleton
import proofs.«100394_j63350767616428_1_alg».proof.Proof.Gen.KernelIdeal.Launch
import proofs.«100394_j63350767616428_1_alg».proof.Proof.Gen.KernelIdeal.Points
import proofs.«100394_j63350767616428_1_alg».proof.Proof.Gen.KernelIdeal.Frame
import proofs.«100394_j63350767616428_1_alg».proof.Proof.Gen.ReferenceIdeal
import proofs.«100394_j63350767616428_1_alg».proof.Proof.Gen.ReferenceIdeal.Run
import proofs.«100394_j63350767616428_1_alg».proof.Proof.Gen.ReferenceIdeal.Read
import proofs.«100394_j63350767616428_1_alg».proof.Proof.Gen.Pre_finite_inputs
import proofs.«100394_j63350767616428_1_alg».proof.Proof.KerRun
import proofs.«100394_j63350767616428_1_alg».proof.Proof.RefMean
import Idealize.ShloMosaic.Adequacy
import Idealize.ShloMosaic.Init

noncomputable section

namespace Cert.Proof

open Idealize.ShloMosaic Idealize.SL.Sem Cert.SegMean

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the segment mean of the three-layer table of arguments that agree. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v31_eq (F := Ideal) _ _ _ _ _ _ _ _).trans ?_
  obtain ⟨h0, h1, h2, h3, h4, h5, h6, h7⟩ := hagree c
  rw [Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
